-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8x1024x64 : Shape := ⟨4, ![8, 8, 1024, 64]⟩
abbrev S8x8x1024x1024 : Shape := ⟨4, ![8, 8, 1024, 1024]⟩
abbrev S8x8x1x1024 : Shape := ⟨4, ![8, 8, 1, 1024]⟩
abbrev S_ : Shape := ⟨0, ![]⟩

class Facts : Prop where
  bcast_S_S8x8x1024x64 : S_.BroadcastsInDim S8x8x1024x64 (![] : Fin 0 → Fin S8x8x1024x64.rank)
  reducesTo_S8x8x1024x64_S_d0_1_2_3 : S8x8x1024x64.ReducesTo [0, 1, 2, 3] S_
  h_S_ : 0 < S_.numel
  bcast_S_S8x8x1x1024 : S_.BroadcastsInDim S8x8x1x1024 (![] : Fin 0 → Fin S8x8x1x1024.rank)
  reducesTo_S8x8x1x1024_S_d0_1_2_3 : S8x8x1x1024.ReducesTo [0, 1, 2, 3] S_

variable [Facts]

def fn_part1 {F : FTy → Type} [FloatOps F] (main_v13 : IVec S_ 1) (main_v16 : IVec S8x8x1x1024 1) : IVec S_ 1 :=
  let main_c_5 : IVec S_ 1 := constantI S_ 1 1#1
  let main_v17 : IVec S_ 1 := (fun x v => Host.reduce IntOp.andi x v reducesTo_S8x8x1x1024_S_d0_1_2_3 h_S_) main_v16 main_c_5
  let main_v18 : IVec S_ 1 := andi main_v13 main_v17
  main_v18

def fn {F : FTy → Type} [FloatOps F] (main_arg0 : FVec F S8x8x1024x64 .f32) (main_arg1 : FVec F S8x8x1024x64 .f32) (main_arg2 : FVec F S8x8x1024x64 .f32) (main_arg3 : IVec S8x8x1024x1024 32) (main_arg4 : FVec F S8x8x1x1024 .f32) : IVec S_ 1 :=
  let main_v0 : FVec F S8x8x1024x64 .f32 := Host.absf main_arg0
  let main_cst : FVec F S_ .f32 := constant S_ .f32 0x7F800000#32
  let main_v1 : FVec F S8x8x1024x64 .f32 := broadcastInDim S8x8x1024x64 ![] bcast_S_S8x8x1024x64 main_cst
  let main_v2 : IVec S8x8x1024x64 1 := cmpf .olt main_v0 main_v1
  let main_c : IVec S_ 1 := constantI S_ 1 1#1
  let main_v3 : IVec S_ 1 := (fun x v => Host.reduce IntOp.andi x v reducesTo_S8x8x1024x64_S_d0_1_2_3 h_S_) main_v2 main_c
  let main_v4 : FVec F S8x8x1024x64 .f32 := Host.absf main_arg1
  let main_cst_0 : FVec F S_ .f32 := constant S_ .f32 0x7F800000#32
  let main_v5 : FVec F S8x8x1024x64 .f32 := broadcastInDim S8x8x1024x64 ![] bcast_S_S8x8x1024x64 main_cst_0
  let main_v6 : IVec S8x8x1024x64 1 := cmpf .olt main_v4 main_v5
  let main_c_1 : IVec S_ 1 := constantI S_ 1 1#1
  let main_v7 : IVec S_ 1 := (fun x v => Host.reduce IntOp.andi x v reducesTo_S8x8x1024x64_S_d0_1_2_3 h_S_) main_v6 main_c_1
  let main_v8 : IVec S_ 1 := andi main_v3 main_v7
  let main_v9 : FVec F S8x8x1024x64 .f32 := Host.absf main_arg2
  let main_cst_2 : FVec F S_ .f32 := constant S_ .f32 0x7F800000#32
  let main_v10 : FVec F S8x8x1024x64 .f32 := broadcastInDim S8x8x1024x64 ![] bcast_S_S8x8x1024x64 main_cst_2
  let main_v11 : IVec S8x8x1024x64 1 := cmpf .olt main_v9 main_v10
  let main_c_3 : IVec S_ 1 := constantI S_ 1 1#1
  let main_v12 : IVec S_ 1 := (fun x v => Host.reduce IntOp.andi x v reducesTo_S8x8x1024x64_S_d0_1_2_3 h_S_) main_v11 main_c_3
  let main_v13 : IVec S_ 1 := andi main_v8 main_v12
  let main_v14 : FVec F S8x8x1x1024 .f32 := Host.absf main_arg4
  let main_cst_4 : FVec F S_ .f32 := constant S_ .f32 0x7F800000#32
  let main_v15 : FVec F S8x8x1x1024 .f32 := broadcastInDim S8x8x1x1024 ![] bcast_S_S8x8x1x1024 main_cst_4
  let main_v16 : IVec S8x8x1x1024 1 := cmpf .olt main_v14 main_v15
  fn_part1 (F := F) main_v13 main_v16
-- ==== Kernel.lean ====
abbrev S8x8x1024x64 : Shape := ⟨4, ![8, 8, 1024, 64]⟩
abbrev S8x8x1024x1024 : Shape := ⟨4, ![8, 8, 1024, 1024]⟩
abbrev S8x8x1x1024 : Shape := ⟨4, ![8, 8, 1, 1024]⟩
abbrev S64x1024x64 : Shape := ⟨3, ![64, 1024, 64]⟩
abbrev S64x1024x1024 : Shape := ⟨3, ![64, 1024, 1024]⟩
abbrev S8x8x1024x1 : Shape := ⟨4, ![8, 8, 1024, 1]⟩
abbrev S64x1024x1 : Shape := ⟨3, ![64, 1024, 1]⟩
abbrev S1x512x64 : Shape := ⟨3, ![1, 512, 64]⟩
abbrev S1x1024x64 : Shape := ⟨3, ![1, 1024, 64]⟩
abbrev S1x512x1024 : Shape := ⟨3, ![1, 512, 1024]⟩
abbrev S1x512x1 : Shape := ⟨3, ![1, 512, 1]⟩
abbrev S512x64 : Shape := ⟨2, ![512, 64]⟩
abbrev S1024x64 : Shape := ⟨2, ![1024, 64]⟩
abbrev S512x1024 : Shape := ⟨2, ![512, 1024]⟩
abbrev S512x1 : Shape := ⟨2, ![512, 1]⟩
abbrev S64x1024 : Shape := ⟨2, ![64, 1024]⟩
abbrev S512 : Shape := ⟨1, ![512]⟩

abbrev nBuf : Space → Nat
  | .hbm => 15
  | .vmem => 14
  | .smem => 0
  | _ => 0

abbrev bufTy : (tb : Table) → Fin (tcTables nBuf tb) → BufTy
  | .hbm, ⟨0, _⟩ => ⟨S8x8x1024x64, .f32⟩
  | .hbm, ⟨1, _⟩ => ⟨S8x8x1024x64, .f32⟩
  | .hbm, ⟨2, _⟩ => ⟨S8x8x1024x64, .f32⟩
  | .hbm, ⟨3, _⟩ => ⟨S8x8x1024x1024, .i32⟩
  | .hbm, ⟨4, _⟩ => ⟨S8x8x1x1024, .f32⟩
  | .hbm, ⟨5, _⟩ => ⟨S64x1024x64, .f32⟩
  | .hbm, ⟨6, _⟩ => ⟨S64x1024x64, .f32⟩
  | .hbm, ⟨7, _⟩ => ⟨S64x1024x64, .f32⟩
  | .hbm, ⟨8, _⟩ => ⟨S64x1024x1024, .i32⟩
  | .hbm, ⟨9, _⟩ => ⟨S8x8x1024x1, .f32⟩
  | .hbm, ⟨10, _⟩ => ⟨S64x1024x1, .f32⟩
  | .hbm, ⟨11, _⟩ => ⟨S64x1024x64, .f32⟩
  | .hbm, ⟨12, _⟩ => ⟨S64x1024x1024, .f32⟩
  | .hbm, ⟨13, _⟩ => ⟨S8x8x1024x64, .f32⟩
  | .hbm, ⟨14, _⟩ => ⟨S8x8x1024x1024, .f32⟩
  | .local _ .vmem, ⟨0, _⟩ => ⟨S1x512x64, .f32⟩
  | .local _ .vmem, ⟨1, _⟩ => ⟨S1x512x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | .local _ .vmem, ⟨6, _⟩ => ⟨S1x512x1024, .i32⟩
  | .local _ .vmem, ⟨7, _⟩ => ⟨S1x512x1024, .i32⟩
  | .local _ .vmem, ⟨8, _⟩ => ⟨S1x512x1, .f32⟩
  | .local _ .vmem, ⟨9, _⟩ => ⟨S1x512x1, .f32⟩
  | .local _ .vmem, ⟨10, _⟩ => ⟨S1x512x64, .f32⟩
  | .local _ .vmem, ⟨11, _⟩ => ⟨S1x512x64, .f32⟩
  | .local _ .vmem, ⟨12, _⟩ => ⟨S1x512x1024, .f32⟩
  | .local _ .vmem, ⟨13, _⟩ => ⟨S1x512x1024, .f32⟩
  | _, _ => ⟨S8x8x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S8x8x1024x64_S64x1024x64 : S8x8x1024x64.ShapeCasts S64x1024x64
  shapeCasts_S8x8x1024x1024_S64x1024x1024 : S8x8x1024x1024.ShapeCasts S64x1024x1024
  transposes_S8x8x1x1024_S8x8x1024x1_0_1_3_2 : S8x8x1x1024.Transposes [0, 1, 3, 2] S8x8x1024x1
  shapeCasts_S8x8x1024x1_S64x1024x1 : S8x8x1024x1.ShapeCasts S64x1024x1
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  bitsLt_bf16_f32 : FTy.bits .bf16 < FTy.bits .f32
  transposes_S1024x64_p1_0_S64x1024 : S1024x64.Transposes [1, 0] S64x1024
  reduces_S512x1024_S512 : S512x1024.Reduces [1] S512
  shapeCasts_S512_S512x1 : S512.ShapeCasts S512x1
  broadcasts_S512x1_S512x1024 : S512x1.Broadcasts S512x1024
  shapeCasts_S512x1024_S1x512x1024 : S512x1024.ShapeCasts S1x512x1024
  shapeCasts_S512x64_S1x512x64 : S512x64.ShapeCasts S1x512x64
  shapeCasts_S64x1024x64_S8x8x1024x64 : S64x1024x64.ShapeCasts S8x8x1024x64
  shapeCasts_S64x1024x1024_S8x8x1024x1024 : S64x1024x1024.ShapeCasts S8x8x1024x1024
  dot_S512x64_S64x1024_S512x1024_1_0_0_1_n_n_wf : DotDims.WF S512x64 S64x1024 S512x1024 [1] [0] [0] [1] [] []
  dot_S512x1024_S1024x64_S512x64_1_0_0_1_n_n_wf : DotDims.WF S512x1024 S1024x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x1024x64.size a
  hwx0_0 : ∀ i : grid0.Coords, EltTy.bits .f32 = 32 ∨ (Rect.block (s := S64x1024x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S64x1024x64.size a
  hwx0_1 : ∀ i : grid0.Coords, EltTy.bits .f32 = 32 ∨ (Rect.block (s := S64x1024x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S64x1024x64.size a
  hwx0_2 : ∀ i : grid0.Coords, EltTy.bits .f32 = 32 ∨ (Rect.block (s := S64x1024x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S64x1024x1024.size a
  hwx0_3 : ∀ i : grid0.Coords, EltTy.bits .i32 = 32 ∨ (Rect.block (s := S64x1024x1024) S1x512x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S64x1024x1.size a
  hwx0_4 : ∀ i : grid0.Coords, EltTy.bits .f32 = 32 ∨ (Rect.block (s := S64x1024x1) S1x512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x64.size a ≤ S64x1024x64.size a
  hwx0_5 : ∀ i : grid0.Coords, EltTy.bits .f32 = 32 ∨ (Rect.block (s := S64x1024x64) S1x512x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S64x1024x1024.size a
  hwx0_6 : ∀ i : grid0.Coords, EltTy.bits .f32 = 32 ∨ (Rect.block (s := S64x1024x1024) S1x512x1024.size (cc0_transform_6 i) (hinb0_6 i)).WholeWords (EltTy.packing .f32)

variable [Facts₀]

def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S1x512x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S1x512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x8x1024x64 : Shape := ⟨4, ![8, 8, 1024, 64]⟩
abbrev S8x8x1024x1024 : Shape := ⟨4, ![8, 8, 1024, 1024]⟩
abbrev S8x8x1x1024 : Shape := ⟨4, ![8, 8, 1, 1024]⟩
abbrev S_ : Shape := ⟨0, ![]⟩
abbrev S8x8x1024 : Shape := ⟨3, ![8, 8, 1024]⟩
abbrev S8x8x1024x1 : Shape := ⟨4, ![8, 8, 1024, 1]⟩

abbrev nBuf : Space → Nat
  | .hbm => 33
  | .vmem => 0
  | .smem => 0
  | _ => 0

abbrev bufTy : (tb : Table) → Fin (tcTables nBuf tb) → BufTy
  | .hbm, ⟨0, _⟩ => ⟨S8x8x1024x64, .f32⟩
  | .hbm, ⟨1, _⟩ => ⟨S8x8x1024x64, .f32⟩
  | .hbm, ⟨2, _⟩ => ⟨S8x8x1024x64, .f32⟩
  | .hbm, ⟨3, _⟩ => ⟨S8x8x1024x1024, .i32⟩
  | .hbm, ⟨4, _⟩ => ⟨S8x8x1x1024, .f32⟩
  | .hbm, ⟨5, _⟩ => ⟨S_, .f32⟩
  | .hbm, ⟨6, _⟩ => ⟨S8x8x1024x64, .f32⟩
  | .hbm, ⟨7, _⟩ => ⟨S8x8x1024x64, .f32⟩
  | .hbm, ⟨8, _⟩ => ⟨S8x8x1024x1024, .f32⟩
  | .hbm, ⟨9, _⟩ => ⟨S_, .i32⟩
  | .hbm, ⟨10, _⟩ => ⟨S8x8x1024x1024, .i32⟩
  | .hbm, ⟨11, _⟩ => ⟨S8x8x1024x1024, .i1⟩
  | .hbm, ⟨12, _⟩ => ⟨S_, .f32⟩
  | .hbm, ⟨13, _⟩ => ⟨S8x8x1024x1024, .f32⟩
  | .hbm, ⟨14, _⟩ => ⟨S8x8x1024x1024, .f32⟩
  | .hbm, ⟨15, _⟩ => ⟨S_, .f32⟩
  | .hbm, ⟨16, _⟩ => ⟨S8x8x1024, .f32⟩
  | .hbm, ⟨17, _⟩ => ⟨S_, .f32⟩
  | .hbm, ⟨18, _⟩ => ⟨S8x8x1024, .f32⟩
  | .hbm, ⟨19, _⟩ => ⟨S8x8x1024, .f32⟩
  | .hbm, ⟨20, _⟩ => ⟨S8x8x1024x1, .f32⟩
  | .hbm, ⟨21, _⟩ => ⟨S8x8x1024x1024, .f32⟩
  | .hbm, ⟨22, _⟩ => ⟨S8x8x1024x1024, .f32⟩
  | .hbm, ⟨23, _⟩ => ⟨S8x8x1024x1024, .f32⟩
  | .hbm, ⟨24, _⟩ => ⟨S_, .f32⟩
  | .hbm, ⟨25, _⟩ => ⟨S8x8x1024, .f32⟩
  | .hbm, ⟨26, _⟩ => ⟨S8x8x1024x1, .f32⟩
  | .hbm, ⟨27, _⟩ => ⟨S8x8x1024x1024, .f32⟩
  | .hbm, ⟨28, _⟩ => ⟨S8x8x1024x1024, .f32⟩
  | .hbm, ⟨29, _⟩ => ⟨S8x8x1024x1, .f32⟩
  | .hbm, ⟨30, _⟩ => ⟨S8x8x1024x1024, .f32⟩
  | .hbm, ⟨31, _⟩ => ⟨S8x8x1024x1024, .f32⟩
  | .hbm, ⟨32, _⟩ => ⟨S8x8x1024x64, .f32⟩
  | _, _ => ⟨S8x8x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_call0_v0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  bcast_S_S8x8x1024x64 : S_.BroadcastsInDim S8x8x1024x64 (![] : Fin 0 → Fin S8x8x1024x64.rank)
  bcast_S_S8x8x1024x1024 : S_.BroadcastsInDim S8x8x1024x1024 (![] : Fin 0 → Fin S8x8x1024x1024.rank)
  reducesTo_S8x8x1024x1024_S8x8x1024_d3 : S8x8x1024x1024.ReducesTo [3] S8x8x1024
  h_S_ : 0 < S_.numel
  bcast_S_S8x8x1024 : S_.BroadcastsInDim S8x8x1024 (![] : Fin 0 → Fin S8x8x1024.rank)
  bcast_S8x8x1024_S8x8x1024x1_0_1_2 : S8x8x1024.BroadcastsInDim S8x8x1024x1 (![0, 1, 2] : Fin 3 → Fin S8x8x1024x1.rank)
  bcast_S8x8x1024x1_S8x8x1024x1024_0_1_2_3 : S8x8x1024x1.BroadcastsInDim S8x8x1024x1024 (![0, 1, 2, 3] : Fin 4 → Fin S8x8x1024x1024.rank)
  transposes_S8x8x1x1024_S8x8x1024x1_0_1_3_2 : S8x8x1x1024.Transposes [0, 1, 3, 2] S8x8x1024x1
  dot_S8x8x1024x64_S8x8x1024x64_S8x8x1024x1024_3_3_2_2_01_01_wf : DotDims.WF S8x8x1024x64 S8x8x1024x64 S8x8x1024x1024 [3] [3] [2] [2] [0, 1] [0, 1]
  dot_S8x8x1024x1024_S8x8x1024x64_S8x8x1024x64_3_2_2_3_01_01_wf : DotDims.WF S8x8x1024x1024 S8x8x1024x64 S8x8x1024x64 [3] [2] [2] [3] [0, 1] [0, 1]

variable [Facts₀]

def dot_S8x8x1024x64_S8x8x1024x64_S8x8x1024x1024_3_3_2_2_01_01 : DotDims S8x8x1024x64 S8x8x1024x64 S8x8x1024x1024 where
  lhsContracting := [3]
  rhsContracting := [3]
  lhsNonContracting := [2]
  rhsNonContracting := [2]
  lhsBatch := [0, 1]
  rhsBatch := [0, 1]
  wf := dot_S8x8x1024x64_S8x8x1024x64_S8x8x1024x1024_3_3_2_2_01_01_wf
def dot_S8x8x1024x1024_S8x8x1024x64_S8x8x1024x64_3_2_2_3_01_01 : DotDims S8x8x1024x1024 S8x8x1024x64 S8x8x1024x64 where
  lhsContracting := [3]
  rhsContracting := [2]
  lhsNonContracting := [2]
  rhsNonContracting := [3]
  lhsBatch := [0, 1]
  rhsBatch := [0, 1]
  wf := dot_S8x8x1024x1024_S8x8x1024x64_S8x8x1024x64_3_2_2_3_01_01_wf

class Facts : Prop extends Facts₀ where

variable [Facts]
-- ==== Proof.AttnSpec.lean ====
/-
  One row of masked softmax attention, on the extended reals.

  For one query row `q` (64 entries), the keys `K` and values `V` of its head (1024 rows of 64), the row's
  mask words and the row's query-mask factor `qm`:
    * the score of key `k` is the fill value `-1e9` where the mask word is zero, and otherwise the
      dot product over the 64 features of `q d * (1/8)` with `K k d`;
    * the row maximum is the fold of `max` from `-∞` over the 1024 scores;
    * the weight of key `k` is `exp (score k - row maximum)`;
    * the attention entry is `weight k / (sum of the weights) * qm`;
    * the output entry `d` is the sum over the keys of the attention entry times `V k d`.
  Both programs compute exactly this; they differ in the batch layout around it and in two scalar
  spellings, which are the two laws at the end: dividing by `8` is multiplying by `1/8` (on every
  extended real, the infinities included), and `max (-∞) x = x`.
-/
import Idealize.ShloMosaic.PureOps.Ideal
import Idealize.ShloMosaic.Lib.ValueIdx

noncomputable section

namespace Cert.Attn

open Idealize.ShloMosaic

/-- The masked, scaled score of key `k` against the query row `q`. -/
def score (q : Fin 64 → EReal) (K : Fin 1024 → Fin 64 → EReal) (mrow : Fin 1024 → BitVec 32) (k : Fin 1024) : EReal :=
  Scalar.select (IntOp.cmpi .eq (mrow k) 0#32) (Ideal.ofBits .f32 0xCE6E6B28#32)
    (∑ d : Fin 64, q d * Ideal.ofBits .f32 0x3E000000#32 * K k d)

/-- The maximum of a row of scores: the fold of `max` from `-∞`. -/
def rowMax (s : Fin 1024 → EReal) : EReal :=
  (Finset.univ : Finset (Fin 1024)).fold max (Ideal.ofBits .f32 0xFF800000#32) s

/-- The unnormalised softmax weight of key `k`. -/
def weight (s : Fin 1024 → EReal) (k : Fin 1024) : EReal := Ideal.exp (s k - rowMax s)

/-- The attention entry of key `k`: the normalised weight times the row's query-mask factor. -/
def attnRow (q : Fin 64 → EReal) (K : Fin 1024 → Fin 64 → EReal) (mrow : Fin 1024 → BitVec 32) (qm : EReal)
    (k : Fin 1024) : EReal :=
  Ideal.div (weight (score q K mrow) k) (∑ j : Fin 1024, weight (score q K mrow) j) * qm

/-- The output entry `d` of the row: the attention row against column `d` of the values. -/
def outRow (q : Fin 64 → EReal) (K V : Fin 1024 → Fin 64 → EReal) (mrow : Fin 1024 → BitVec 32) (qm : EReal)
    (d : Fin 64) : EReal :=
  ∑ k : Fin 1024, attnRow q K mrow qm k * V k d

/-! ## The two results as whole arrays over the `[8, 8, …]` batch layout

  Entry `(b, h, q, ·)` of either result is the row function of: row `q` of head `(b, h)` of the queries, that
  head's keys and values, row `q` of the head's mask, and entry `(b, h, 0, q)` of the query mask. -/

open Idealize.ShloMosaic.ValueIdx

/-- The attention weights, `[8, 8, 1024, 1024]`. -/
def attn4 (Q K : (⟨4, ![8, 8, 1024, 64]⟩ : Shape).Idx → EReal) (M : (⟨4, ![8, 8, 1024, 1024]⟩ : Shape).Idx → BitVec 32)
    (QM : (⟨4, ![8, 8, 1, 1024]⟩ : Shape).Idx → EReal) : (⟨4, ![8, 8, 1024, 1024]⟩ : Shape).Idx → EReal :=
  fun i => attnRow (fun d => Q (ix4 (i 0) (i 1) (i 2) d)) (fun k d => K (ix4 (i 0) (i 1) k d))
    (fun k => M (ix4 (i 0) (i 1) (i 2) k)) (QM (ix4 (i 0) (i 1) (0 : Fin 1) (i 2))) (i 3)

/-- The attention output, `[8, 8, 1024, 64]`. -/
def out4 (Q K V : (⟨4, ![8, 8, 1024, 64]⟩ : Shape).Idx → EReal) (M : (⟨4, ![8, 8, 1024, 1024]⟩ : Shape).Idx → BitVec 32)
    (QM : (⟨4, ![8, 8, 1, 1024]⟩ : Shape).Idx → EReal) : (⟨4, ![8, 8, 1024, 64]⟩ : Shape).Idx → EReal :=
  fun i => outRow (fun d => Q (ix4 (i 0) (i 1) (i 2) d)) (fun k d => K (ix4 (i 0) (i 1) k d))
    (fun k d => V (ix4 (i 0) (i 1) k d)) (fun k => M (ix4 (i 0) (i 1) (i 2) k))
    (QM (ix4 (i 0) (i 1) (0 : Fin 1) (i 2))) (i 3)

/-! ## The two scalar laws -/

/-- The word `0x3E000000` denotes `1/8`. -/
theorem ofBits_eighth : Ideal.ofBits .f32 0x3E000000#32 = ((1 / 8 : ℝ) : EReal) := by
  simp [Ideal.ofBits, Ideal.ieee, -EReal.coe_mul]; norm_num

/-- The word `0x41000000` denotes `8`. -/
theorem ofBits_eight : Ideal.ofBits .f32 0x41000000#32 = ((8 : ℝ) : EReal) := by
  simp [Ideal.ofBits, Ideal.ieee, -EReal.coe_mul]; norm_num

/-- Dividing by eight is multiplying by one eighth, on every extended real. -/
theorem div_eight (x : EReal) :
    Ideal.div x (Ideal.ofBits .f32 0x41000000#32) = x * Ideal.ofBits .f32 0x3E000000#32 := by
  rw [ofBits_eight, ofBits_eighth]
  exact Ideal.div_coe (by norm_num) x

/-- The maximum with `-∞` is the other argument. -/
theorem max_negInf (x : EReal) : max (Ideal.ofBits .f32 0xFF800000#32) x = x := by
  simp [Ideal.ofBits, Ideal.ieee]

end Cert.Attn

end
-- ==== Proof.RefRead.lean ====
/-
  The reference program's two results are the attention weights and the attention output of the row
  specification, as whole `[8, 8, …]` arrays of its five arguments.

  Read one operation at a time: the score of `(b, h, q, k)` is the select between the fill and the dot product
  over the 64 features of `Q (b, h, q, d) / 8` with `K (b, h, k, d)` — the quotient by eight is the product with
  one eighth —; the row maximum is the host's max-reduce from `-∞` over the last axis, once more `max`ed with
  `-∞`, which changes nothing; the weights, their sum from zero, the quotient and the product with the
  transposed query mask follow entry by entry; the output is the dot product over the 1024 keys.
-/
import proofs.«128192_j53420803228253_2_alg».proof.Proof.Gen.ReferenceIdeal.Read
import proofs.«128192_j53420803228253_2_alg».proof.Proof.AttnSpec

noncomputable section

namespace Cert.ReferenceIdeal.RefValue

open Cert.ReferenceIdeal Cert.ReferenceIdeal.Gen Cert.ReferenceIdeal.Read Idealize.ShloMosaic Idealize.ShloMosaic.ValueIdx
open Cert.Attn

variable (x0 x1 x2 : (⟨S8x8x1024x64, .f32⟩ : BufTy).Contents (Elt Ideal))
  (x3 : (⟨S8x8x1024x1024, .i32⟩ : BufTy).Contents (Elt Ideal))
  (x4 : (⟨S8x8x1x1024, .f32⟩ : BufTy).Contents (Elt Ideal))

/-- The masked, scaled scores. -/
theorem scores_at (b h : Fin 8) (q k : Fin 1024) :
    val_main_v5 (F := Ideal) x0 x1 x3 (ix4 b h q k)
      = score (fun d => x0 (ix4 b h q d)) (fun k d => x1 (ix4 b h k d)) (fun k => x3 (ix4 b h q k)) k := by
  rw [val_main_v5_apply, val_main_v4_apply, val_main_v3_apply, val_main_c_apply, val_main_call0_v0_apply,
    val_main_cst_0_apply, val_main_v2_apply]
  unfold score
  refine congrArg (Scalar.select _ _) (Finset.sum_congr rfl fun d _ => ?_)
  rw [val_main_v1_apply, val_main_v0_apply, val_main_cst_apply]
  have el : lidx_main_v2 (ix4 b h q k) d = ix4 b h q d := funext fun a => Fin.ext (by
    match a with | ⟨0, _⟩ => rfl | ⟨1, _⟩ => rfl | ⟨2, _⟩ => rfl | ⟨3, _⟩ => rfl)
  have er : ridx_main_v2 (ix4 b h q k) d = ix4 b h k d := funext fun a => Fin.ext (by
    match a with | ⟨0, _⟩ => rfl | ⟨1, _⟩ => rfl | ⟨2, _⟩ => rfl | ⟨3, _⟩ => rfl)
  rw [el, er]
  show Ideal.div (x0 (ix4 b h q d)) (Ideal.ofBits .f32 0x41000000#32) * x1 (ix4 b h k d) = _
  rw [div_eight]

/-- Inserting the key coordinate into a row's index. -/
theorem lift_key (hr : S8x8x1024x1024.Reduces [3] S8x8x1024) (b h : Fin 8) (q k : Fin 1024) :
    hr.lift (ix3 b h q) k = ix4 b h q k := by
  funext c
  apply Fin.ext
  match c with
  | ⟨0, _⟩ => rfl
  | ⟨1, _⟩ => rfl
  | ⟨2, _⟩ => rfl
  | ⟨3, _⟩ => rfl

/-- The row maximum. -/
theorem rowMax_at (b h : Fin 8) (q : Fin 1024) :
    val_main_v8 (F := Ideal) x0 x1 x3 (ix3 b h q)
      = rowMax (score (fun d => x0 (ix4 b h q d)) (fun k d => x1 (ix4 b h k d)) (fun k => x3 (ix4 b h q k))) := by
  have hr : S8x8x1024x1024.Reduces [3] S8x8x1024 := by decide
  rw [val_main_v8_apply, val_main_v7_apply, val_main_cst_2_apply]
  show max (Ideal.ofBits .f32 0xFF800000#32) (val_main_v6 (F := Ideal) x0 x1 x3 (ix3 b h q)) = _
  rw [max_negInf]
  unfold val_main_v6
  rw [Host.reduce_eq_fold_single FloatOps.maximumf _ _ reducesTo_S8x8x1024x1024_S8x8x1024_d3 hr h_S_]
  unfold rowMax
  have hf : (fun k : Fin 1024 => val_main_v5 (F := Ideal) x0 x1 x3 (hr.lift (ix3 b h q) k))
      = score (fun d => x0 (ix4 b h q d)) (fun k d => x1 (ix4 b h k d)) (fun k => x3 (ix4 b h q k)) :=
    funext fun (k : Fin 1024) => by rw [lift_key, scores_at]
  exact congrArg (fun f => Finset.fold max (Ideal.ofBits .f32 0xFF800000#32) f (Finset.univ : Finset (Fin 1024))) hf

/-- The unnormalised weights. -/
theorem weight_at (b h : Fin 8) (q k : Fin 1024) :
    val_main_v12 (F := Ideal) x0 x1 x3 (ix4 b h q k)
      = weight (score (fun d => x0 (ix4 b h q d)) (fun k d => x1 (ix4 b h k d)) (fun k => x3 (ix4 b h q k))) k := by
  rw [val_main_v12_apply, val_main_v11_apply, val_main_v10_apply, val_main_v9_apply]
  have e : idx_main_v9 (idx_main_v10 (ix4 b h q k)) = ix3 b h q := funext fun a => Fin.ext (by
    match a with | ⟨0, _⟩ => rfl | ⟨1, _⟩ => rfl | ⟨2, _⟩ => rfl)
  rw [e, rowMax_at, scores_at]
  rfl

/-- The attention weights, entry by entry. -/
theorem attn_at (b h : Fin 8) (q k : Fin 1024) :
    val_main_v19 (F := Ideal) x0 x1 x3 x4 (ix4 b h q k)
      = attnRow (fun d => x0 (ix4 b h q d)) (fun k d => x1 (ix4 b h k d)) (fun k => x3 (ix4 b h q k))
          (x4 (ix4 b h (0 : Fin 1) q)) k := by
  rw [val_main_v19_apply, val_main_v16_apply, val_main_v15_apply, val_main_v14_apply, val_main_v18_apply,
    val_main_v17_apply]
  have e1 : idx_main_v14 (idx_main_v15 (ix4 b h q k)) = ix3 b h q := funext fun a => Fin.ext (by
    match a with | ⟨0, _⟩ => rfl | ⟨1, _⟩ => rfl | ⟨2, _⟩ => rfl)
  have e2 : idx_main_v17 (idx_main_v18 (ix4 b h q k)) = ix4 b h (0 : Fin 1) q := funext fun a => Fin.ext (by
    match a with | ⟨0, _⟩ => rfl | ⟨1, _⟩ => rfl | ⟨2, _⟩ => rfl | ⟨3, _⟩ => rfl)
  rw [e1, e2, val_main_v13_apply, val_main_cst_3_apply, weight_at]
  have es : ∀ j : Fin 1024, val_main_v12 (F := Ideal) x0 x1 x3 (idx_main_v13 (ix3 b h q) j)
      = weight (score (fun d => x0 (ix4 b h q d)) (fun k d => x1 (ix4 b h k d)) (fun k => x3 (ix4 b h q k))) j :=
    fun j => by
      have ej : idx_main_v13 (ix3 b h q) j = ix4 b h q j := funext fun a => Fin.ext (by
        match a with | ⟨0, _⟩ => rfl | ⟨1, _⟩ => rfl | ⟨2, _⟩ => rfl | ⟨3, _⟩ => rfl)
      rw [ej, weight_at]
  rw [Finset.sum_congr rfl fun j _ => es j]
  unfold attnRow
  show Ideal.div _ (Ideal.ofBits .f32 0x00000000#32 + _) * _ = _
  rw [Ideal.ofBits_zero_f32, zero_add]

/-- The attention output, entry by entry. -/
theorem out_at (b h : Fin 8) (q : Fin 1024) (d : Fin 64) :
    val_main_v20 (F := Ideal) x0 x1 x2 x3 x4 (ix4 b h q d)
      = outRow (fun d => x0 (ix4 b h q d)) (fun k d => x1 (ix4 b h k d)) (fun k d => x2 (ix4 b h k d))
          (fun k => x3 (ix4 b h q k)) (x4 (ix4 b h (0 : Fin 1) q)) d := by
  rw [val_main_v20_apply]
  unfold outRow
  refine Finset.sum_congr rfl fun k _ => ?_
  have el : lidx_main_v20 (ix4 b h q d) k = ix4 b h q k := funext fun a => Fin.ext (by
    match a with | ⟨0, _⟩ => rfl | ⟨1, _⟩ => rfl | ⟨2, _⟩ => rfl | ⟨3, _⟩ => rfl)
  have er : ridx_main_v20 (ix4 b h q d) k = ix4 b h k d := funext fun a => Fin.ext (by
    match a with | ⟨0, _⟩ => rfl | ⟨1, _⟩ => rfl | ⟨2, _⟩ => rfl | ⟨3, _⟩ => rfl)
  rw [el, er, attn_at]

/-- The reference's second result is the attention weights of its arguments. -/
theorem attn_eq : val_main_v19 (F := Ideal) x0 x1 x3 x4 = attn4 x0 x1 x3 x4 := by
  funext i
  obtain ⟨b, h, q, k, rfl⟩ : ∃ (b h : Fin 8) (q k : Fin 1024), i = ix4 b h q k := ⟨i 0, i 1, i 2, i 3, eq_ix4 i⟩
  rw [attn_at]
  rfl

/-- The reference's first result is the attention output of its arguments. -/
theorem out_eq : val_main_v20 (F := Ideal) x0 x1 x2 x3 x4 = out4 x0 x1 x2 x3 x4 := by
  funext i
  obtain ⟨b, h, q, d, rfl⟩ : ∃ (b h : Fin 8) (q : Fin 1024) (d : Fin 64), i = ix4 b h q d := ⟨i 0, i 1, i 2, i 3, eq_ix4 i⟩
  rw [out_at]
  rfl

end Cert.ReferenceIdeal.RefValue

end
-- ==== Proof.LibKeepdims.lean ====
/-
  Column ("keepdims") layouts read at an index: a vector viewed as a one-column matrix, and a one-column matrix
  broadcast along its unit axis. A row reduction kept as a column (`sum(-1, keepdims=True)`) is the first followed,
  where it meets the matrix it was reduced from, by the second.
-/
import Idealize.ShloMosaic.Lib.ValueIdx
import Idealize.ShloMosaic.Lib.Pipeline.Value

namespace Cert.Lib

open Idealize.ShloMosaic Idealize.ShloMosaic.ValueIdx

variable {α : Type}

/-- An `[a]` vector cast to the column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(p, q)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.LibRowReduce.lean ====
/-
  Row reductions kept as a column, read at an index, at the ideal values: the sum (or the maximum) of a matrix
  along its rows, viewed as a one-column matrix, holds at `(p, u)` the sum (the fold of `max`) of row `p`.
-/
import Idealize.ShloMosaic.PureOps.Ideal.Laws
import Idealize.ShloMosaic.Lib.ValueIdx
import Idealize.ShloMosaic.Lib.Pipeline.Value
import proofs.«128192_j53420803228253_2_alg».proof.Proof.LibKeepdims

namespace Cert.Lib

open Idealize.ShloMosaic Idealize.ShloMosaic.ValueIdx

variable {φ : FTy}

/-- Inserting the column coordinate `k` into the row index `p` gives `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

/-- The row sums of an `[a, b]` matrix, kept as an `[a, 1]` column: at `(p, u)` the sum of row `p`. -/
theorem rowSum_col {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) (u : Fin 1) :
    shapeCast ⟨2, ![a, 1]⟩ (multiReduction .add [1] ⟨1, ![a]⟩ v acc h hφ hacc) hc (ix2 p u)
      = ∑ k : Fin b, v (ix2 p k) := by
  rw [shapeCast_a_a1_apply]
  refine (Ideal.multiReduction_add_single v acc h hφ hacc (ix1 p)).trans ?_
  exact Finset.sum_congr rfl fun k _ => congrArg v (lift_row h p k)

/-- The row maxima likewise: at `(p, u)` the fold of `max`, from the accumulator's value, over row `p`. -/
theorem rowMax_col {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (hc : (⟨1, ![a]⟩ : Shape).ShapeCasts ⟨2, ![a, 1]⟩) (p : Fin a) (u : Fin 1) :
    shapeCast ⟨2, ![a, 1]⟩ (multiReduction .maximumf [1] ⟨1, ![a]⟩ v acc h hφ hacc) hc (ix2 p u)
      = (Finset.univ : Finset (Fin b)).fold max (Ideal.ofBits φ acc) (fun k => v (ix2 p k)) := by
  rw [shapeCast_a_a1_apply]
  refine (Ideal.multiReduction_maximumf_single v acc h hφ hacc (ix1 p)).trans ?_
  have e : (v ∘ h.lift (ix1 p)) = fun k : Fin b => v (ix2 p k) := funext fun k => congrArg v (lift_row h p k)
  rw [e]
  rfl

end Cert.Lib
-- ==== Proof.KernelPayload.lean ====
/-
  The kernel body's arithmetic, read at an index at the ideal values.

  One grid point holds a block of 512 query rows `x0` (`[1, 512, 64]`), the head's keys `x1` and values `x2`
  (`[1, 1024, 64]`), the rows' mask words `x3` (`[1, 512, 1024]`) and query-mask factors `x4` (`[1, 512, 1]`). Row `r` of
  what it stores is the row specification of row `r` of those blocks:
    * the first matrix product, into a zero accumulator, of the scaled queries with the transposed keys is at
      `(r, k)` the sum over the 64 features of `x0 (0, r, d) * (1/8) * x1 (0, k, d)`; the select puts the fill where
      the mask word is zero: the scores;
    * the lane maximum and the lane sum, kept as columns and broadcast back, are the row maximum and the sum of
      the row's weights; so the stored attention block at `(0, r, k)` is the attention entry of key `k`;
    * the second matrix product, again into zero, of that block with the values is at `(0, r, d)` the sum over
      the 1024 keys: the output entry.
  Changes of float format are the identity at the ideal values.
-/
import proofs.«128192_j53420803228253_2_alg».proof.Proof.Gen.KernelIdeal.Skeleton
import proofs.«128192_j53420803228253_2_alg».proof.Proof.AttnSpec
import proofs.«128192_j53420803228253_2_alg».proof.Proof.LibRowReduce
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx
open Cert.Attn Cert.Lib

/-- The elementwise exponential read at an index. -/
theorem exp_apply {s : Shape} {φ : FTy} (x : FVec Ideal s φ) (i : s.Idx) : exp x i = Ideal.exp (x i) := rfl

/-! ## The two matrix products as sums -/

local notation "D1" => dot_S512x64_S64x1024_S512x1024_1_0_0_1_n_n
local notation "D2" => dot_S512x1024_S1024x64_S512x64_1_0_0_1_n_n

theorem d1_lhs_0 (i : S512x1024.Idx) (c : (D1).contr.Idx) : ((D1).lhsIdx i c 0).val = (i 0).val := by
  unfold DotDims.lhsIdx
  rw [dif_neg (show ¬(0 : Fin S512x64.rank) ∈ (D1).lhsBatch by decide),
    dif_pos (show (0 : Fin S512x64.rank) ∈ (D1).lhsNonContracting by decide)]
  rfl
theorem d1_lhs_1 (i : S512x1024.Idx) (c : (D1).contr.Idx) : ((D1).lhsIdx i c 1).val = (c ⟨0, by decide⟩).val :=
  (D1).lhsIdx_val_of_single rfl i c
theorem d1_rhs_0 (i : S512x1024.Idx) (c : (D1).contr.Idx) : ((D1).rhsIdx i c 0).val = (c ⟨0, by decide⟩).val :=
  (D1).rhsIdx_val_of_single rfl i c
theorem d1_rhs_1 (i : S512x1024.Idx) (c : (D1).contr.Idx) : ((D1).rhsIdx i c 1).val = (i 1).val := by
  unfold DotDims.rhsIdx
  rw [dif_neg (show ¬(1 : Fin S64x1024.rank) ∈ (D1).rhsBatch by decide),
    dif_pos (show (1 : Fin S64x1024.rank) ∈ (D1).rhsNonContracting by decide)]
  rfl

theorem d2_lhs_0 (i : S512x64.Idx) (c : (D2).contr.Idx) : ((D2).lhsIdx i c 0).val = (i 0).val := by
  unfold DotDims.lhsIdx
  rw [dif_neg (show ¬(0 : Fin S512x1024.rank) ∈ (D2).lhsBatch by decide),
    dif_pos (show (0 : Fin S512x1024.rank) ∈ (D2).lhsNonContracting by decide)]
  rfl
theorem d2_lhs_1 (i : S512x64.Idx) (c : (D2).contr.Idx) : ((D2).lhsIdx i c 1).val = (c ⟨0, by decide⟩).val :=
  (D2).lhsIdx_val_of_single rfl i c
theorem d2_rhs_0 (i : S512x64.Idx) (c : (D2).contr.Idx) : ((D2).rhsIdx i c 0).val = (c ⟨0, by decide⟩).val :=
  (D2).rhsIdx_val_of_single rfl i c
theorem d2_rhs_1 (i : S512x64.Idx) (c : (D2).contr.Idx) : ((D2).rhsIdx i c 1).val = (i 1).val := by
  unfold DotDims.rhsIdx
  rw [dif_neg (show ¬(1 : Fin S1024x64.rank) ∈ (D2).rhsBatch by decide),
    dif_pos (show (1 : Fin S1024x64.rank) ∈ (D2).rhsNonContracting by decide)]
  rfl

/-- A `[512, 64]` by `[64, 1024]` product into zero, at `(r, k)`: the sum over the 64 shared coordinates. -/
theorem matmul1_at (l : FVec Ideal S512x64 .bf16) (t : FVec Ideal S64x1024 .bf16) (r : Fin 512) (k : Fin 1024) :
    matmul (D1) none l t (constant (F := Ideal) S512x1024 .f32 0x00000000#32) (ix2 r k)
      = ∑ d : Fin 64, l (ix2 r d) * t (ix2 d k) := by
  simp only [matmul]
  rw [Ideal.matmul_constant_zero_apply, ← Equiv.sum_comp (contrEquiv1 (D1) 64 rfl rfl).symm]
  refine Finset.sum_congr rfl fun d _ => ?_
  have hk := contrEquiv1_symm_val (D1) 64 rfl rfl d
  have el : (D1).lhsIdx (ix2 r k) ((contrEquiv1 (D1) 64 rfl rfl).symm d) = ix2 r d := funext fun a => Fin.ext (by
    match a with
    | ⟨0, _⟩ => exact d1_lhs_0 _ _
    | ⟨1, _⟩ => exact (d1_lhs_1 _ _).trans hk)
  have er : (D1).rhsIdx (ix2 r k) ((contrEquiv1 (D1) 64 rfl rfl).symm d) = ix2 d k := funext fun a => Fin.ext (by
    match a with
    | ⟨0, _⟩ => exact (d1_rhs_0 _ _).trans hk
    | ⟨1, _⟩ => exact d1_rhs_1 _ _)
  rw [el, er]

/-- A `[512, 1024]` by `[1024, 64]` product into zero, at `(r, d)`: the sum over the 1024 shared coordinates. -/
theorem matmul2_at (l : FVec Ideal S512x1024 .bf16) (t : FVec Ideal S1024x64 .bf16) (r : Fin 512) (d : Fin 64) :
    matmul (D2) none l t (constant (F := Ideal) S512x64 .f32 0x00000000#32) (ix2 r d)
      = ∑ k : Fin 1024, l (ix2 r k) * t (ix2 k d) := by
  simp only [matmul]
  rw [Ideal.matmul_constant_zero_apply, ← Equiv.sum_comp (contrEquiv1 (D2) 1024 rfl rfl).symm]
  refine Finset.sum_congr rfl fun k _ => ?_
  have hk := contrEquiv1_symm_val (D2) 1024 rfl rfl k
  have el : (D2).lhsIdx (ix2 r d) ((contrEquiv1 (D2) 1024 rfl rfl).symm k) = ix2 r k := funext fun a => Fin.ext (by
    match a with
    | ⟨0, _⟩ => exact d2_lhs_0 _ _
    | ⟨1, _⟩ => exact (d2_lhs_1 _ _).trans hk)
  have er : (D2).rhsIdx (ix2 r d) ((contrEquiv1 (D2) 1024 rfl rfl).symm k) = ix2 k d := funext fun a => Fin.ext (by
    match a with
    | ⟨0, _⟩ => exact (d2_rhs_0 _ _).trans hk
    | ⟨1, _⟩ => exact d2_rhs_1 _ _)
  rw [el, er]

/-! ## The scores of a block -/

/-- The select over the first product, at `(r, k)`: the score of key `k` against row `r`. -/
theorem scoresBlk_at (v1 : FVec Ideal S512x64 .f32) (v3 : FVec Ideal S1024x64 .f32) (v7 : IVec S512x1024 32)
    (r : Fin 512) (k : Fin 1024) :
    select (cmpi .eq v7 (broadcast S512x1024 (0#32 : BitVec 32)))
        (broadcast S512x1024 (Scalar.ofBits (F := Ideal) .f32 0xCE6E6B28#32))
        (matmul (D1) none
          (truncf .bf16 (mulf v1 (broadcast S512x64 (Scalar.ofBits (F := Ideal) .f32 0x3E000000#32))) bitsLt_bf16_f32)
          (transpose S64x1024 [1, 0] (truncf .bf16 v3 bitsLt_bf16_f32) transposes_S1024x64_p1_0_S64x1024)
          (constant (F := Ideal) S512x1024 .f32 0x00000000#32)) (ix2 r k)
      = score (fun d => v1 (ix2 r d)) (fun k d => v3 (ix2 k d)) (fun k => v7 (ix2 r k)) k := by
  rw [select_apply, matmul1_at]
  unfold score
  refine congrArg (Scalar.select _ _) (Finset.sum_congr rfl fun d _ => ?_)
  rw [transpose_ix2_apply]
  rfl

/-! ## The softmax of a block of scores -/

/-- The rows' maxima, kept as a column and broadcast back over the keys (for any proofs of the reduction's two
    side conditions). -/
abbrev maxB (S : FVec Ideal S512x1024 .f32) (h1 : FKind.Formats .f32)
    (a1 : (0xFF800000#32 : BitVec FTy.f32.bits) = FKind.maximumf.neutral .f32 h1) : FVec Ideal S512x1024 .f32 :=
  broadcastTo S512x1024 (shapeCast S512x1 (multiReduction (F := Ideal) .maximumf [1] S512 S 0xFF800000#32
    reduces_S512x1024_S512 h1 a1) shapeCasts_S512_S512x1) broadcasts_S512x1_S512x1024

/-- The rows' sums, kept as a column and broadcast back over the keys. -/
abbrev sumB (P : FVec Ideal S512x1024 .f32) (h2 : FKind.Formats .f32)
    (a2 : (0x00000000#32 : BitVec FTy.f32.bits) = FKind.add.neutral .f32 h2) : FVec Ideal S512x1024 .f32 :=
  broadcastTo S512x1024 (shapeCast S512x1 (multiReduction (F := Ideal) .add [1] S512 P 0x00000000#32
    reduces_S512x1024_S512 h2 a2) shapeCasts_S512_S512x1) broadcasts_S512x1_S512x1024

theorem maxB_at (S : FVec Ideal S512x1024 .f32) (h1 : FKind.Formats .f32)
    (a1 : (0xFF800000#32 : BitVec FTy.f32.bits) = FKind.maximumf.neutral .f32 h1) (r : Fin 512) (k : Fin 1024) :
    maxB S h1 a1 (ix2 r k) = rowMax (fun j => S (ix2 r j)) := by
  unfold maxB
  rw [broadcastTo_a1_ab_apply, rowMax_col]
  rfl

theorem sumB_at (P : FVec Ideal S512x1024 .f32) (h2 : FKind.Formats .f32)
    (a2 : (0x00000000#32 : BitVec FTy.f32.bits) = FKind.add.neutral .f32 h2) (r : Fin 512) (k : Fin 1024) :
    sumB P h2 a2 (ix2 r k) = ∑ j : Fin 1024, P (ix2 r j) := by
  unfold sumB
  rw [broadcastTo_a1_ab_apply, rowSum_col]

/-- Row `r` of the weights `exp (S - rows' maxima)` over the rows' sums, times the column `c`: the normalised
    weights of the row's scores `sc` times the row's factor. -/
theorem softmax_at (S : FVec Ideal S512x1024 .f32) (c : FVec Ideal S512x1 .f32) (sc : Fin 1024 → EReal) (r : Fin 512)
    (hS : ∀ j : Fin 1024, S (ix2 r j) = sc j) (k : Fin 1024) (h1 : FKind.Formats .f32)
    (a1 : (0xFF800000#32 : BitVec FTy.f32.bits) = FKind.maximumf.neutral .f32 h1) (h2 : FKind.Formats .f32)
    (a2 : (0x00000000#32 : BitVec FTy.f32.bits) = FKind.add.neutral .f32 h2) :
    mulf (divf (exp (subf S (maxB S h1 a1))) (sumB (exp (subf S (maxB S h1 a1))) h2 a2))
        (broadcastTo S512x1024 c broadcasts_S512x1_S512x1024) (ix2 r k)
      = Ideal.div (weight sc k) (∑ j : Fin 1024, weight sc j) * c (ix2 r (0 : Fin 1)) := by
  have hrow : (fun j : Fin 1024 => S (ix2 r j)) = sc := funext hS
  have hw : ∀ j : Fin 1024, exp (subf S (maxB S h1 a1)) (ix2 r j) = weight sc j := fun j => by
    rw [exp_apply, subf_apply, maxB_at, hrow, hS]
    rfl
  rw [mulf_apply, divf_apply, sumB_at, broadcastTo_a1_ab_apply, hw, Finset.sum_congr rfl fun j _ => hw j]

/-! ## The two payloads -/

/-- The attention block (before its leading unit axis is added) at `(r, k)`. -/
theorem pay3_at (x0 : Vec Ideal S1x512x64 .f32) (x1 : Vec Ideal S1x1024x64 .f32) (x3 : Vec Ideal S1x512x1024 .i32)
    (x4 : Vec Ideal S1x512x1 .f32) (r : Fin 512) (k : Fin 1024) :
    k0_pay3 (F := Ideal) x0 x1 x3 x4 (ix2 r k)
      = attnRow (fun d => x0 (ix3 (0 : Fin 1) r d)) (fun k d => x1 (ix3 (0 : Fin 1) k d))
          (fun k => x3 (ix3 (0 : Fin 1) r k)) (x4 (ix3 (0 : Fin 1) r (0 : Fin 1))) k := by
  unfold k0_pay3
  refine (softmax_at _ _ (score (fun d => x0 (ix3 (0 : Fin 1) r d)) (fun k d => x1 (ix3 (0 : Fin 1) k d))
    (fun k => x3 (ix3 (0 : Fin 1) r k))) r (fun j => ?_) k _ _ _ _).trans ?_
  · refine (scoresBlk_at _ _ _ r j).trans ?_
    simp only [shapeCast_1ab_ab_apply]
  · unfold attnRow
    rw [shapeCast_1ab_ab_apply]

/-- The stored attention block at `(0, r, k)`. -/
theorem pay4_at (x0 : Vec Ideal S1x512x64 .f32) (x1 : Vec Ideal S1x1024x64 .f32) (x3 : Vec Ideal S1x512x1024 .i32)
    (x4 : Vec Ideal S1x512x1 .f32) (r : Fin 512) (k : Fin 1024) :
    k0_pay4 (F := Ideal) x0 x1 x3 x4 (ix3 (0 : Fin 1) r k)
      = attnRow (fun d => x0 (ix3 (0 : Fin 1) r d)) (fun k d => x1 (ix3 (0 : Fin 1) k d))
          (fun k => x3 (ix3 (0 : Fin 1) r k)) (x4 (ix3 (0 : Fin 1) r (0 : Fin 1))) k := by
  unfold k0_pay4
  rw [shapeCast_ab_1ab_apply, pay3_at]

/-- The stored output block at `(0, r, d)`. -/
theorem pay1_at (x0 : Vec Ideal S1x512x64 .f32) (x1 x2 : Vec Ideal S1x1024x64 .f32) (x3 : Vec Ideal S1x512x1024 .i32)
    (x4 : Vec Ideal S1x512x1 .f32) (r : Fin 512) (d : Fin 64) :
    k0_pay1 (F := Ideal) (k0_pay2 x2) (k0_pay3 x0 x1 x3 x4) (ix3 (0 : Fin 1) r d)
      = outRow (fun d => x0 (ix3 (0 : Fin 1) r d)) (fun k d => x1 (ix3 (0 : Fin 1) k d))
          (fun k d => x2 (ix3 (0 : Fin 1) k d)) (fun k => x3 (ix3 (0 : Fin 1) r k))
          (x4 (ix3 (0 : Fin 1) r (0 : Fin 1))) d := by
  unfold k0_pay1
  rw [shapeCast_ab_1ab_apply, matmul2_at]
  unfold outRow
  refine Finset.sum_congr rfl fun k _ => ?_
  rw [truncf_apply, truncf_apply, pay3_at]
  unfold k0_pay2
  rw [shapeCast_1ab_ab_apply]

end Cert.KernelIdeal.Payload

end
-- ==== Proof.KernelBlocks.lean ====
/-
  From the blocks the grid points write back to the two result arrays of the region.

  The region runs over the `[64, …]` arrays (the 64 = 8 * 8 heads on one axis). Point `t = (g, s)` — head `g`, half
  `s` of the 1024 query rows — fetches rows `512 s … 512 s + 511` of head `g`'s queries, mask and query-mask
  column, and ALL of head `g`'s keys and values (their block index is `(g, 0, 0)`), and writes back rows
  `512 s … 512 s + 511` of head `g` of both results. So an entry `(0, r, ·)` of a block is entry `(g, 512 s + r, ·)` of
  its array (a block's coordinate is always index * size + the coordinate inside the block), and what a point
  writes back is that block of ONE whole-array function: row `(g, q)` of either result is the row specification
  of row `(g, q)` of the queries, head `g`'s keys and values, row `(g, q)` of the mask and entry `(g, q, 0)` of the
  query-mask column. The 128 blocks tile each result array, so after the run each array IS that function.
-/
import proofs.«128192_j53420803228253_2_alg».proof.Proof.Gen.KernelIdeal.Frame
import proofs.«128192_j53420803228253_2_alg».proof.Proof.KernelPayload

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Attn Cert.KernelIdeal.Payload

variable (m : (ℓ : Loc nD τ sig) → Buf (Elt Ideal) ℓ)

theorem hz3 : (![0, 0, 0] : Fin 3 → Nat) = fun _ => 0 := funext fun a => by fin_cases a <;> rfl

/-! ## The two results over the merged batch axis -/

/-- The attention weights, `[64, 1024, 1024]`. -/
def attn3 (A0 A1 : S64x1024x64.Idx → EReal) (A3 : S64x1024x1024.Idx → BitVec 32) (A4 : S64x1024x1.Idx → EReal) :
    S64x1024x1024.Idx → EReal :=
  fun i => attnRow (fun d => A0 (ix3 (i 0) (i 1) d)) (fun k d => A1 (ix3 (i 0) k d))
    (fun k => A3 (ix3 (i 0) (i 1) k)) (A4 (ix3 (i 0) (i 1) (0 : Fin 1))) (i 2)

/-- The attention output, `[64, 1024, 64]`. -/
def out3 (A0 A1 A2 : S64x1024x64.Idx → EReal) (A3 : S64x1024x1024.Idx → BitVec 32) (A4 : S64x1024x1.Idx → EReal) :
    S64x1024x64.Idx → EReal :=
  fun i => outRow (fun d => A0 (ix3 (i 0) (i 1) d)) (fun k d => A1 (ix3 (i 0) k d)) (fun k d => A2 (ix3 (i 0) k d))
    (fun k => A3 (ix3 (i 0) (i 1) k)) (A4 (ix3 (i 0) (i 1) (0 : Fin 1))) (i 2)

/-! ## A block of a result from the blocks of the inputs -/

/-- If row `r` of the input blocks is row `(g, q)` of the input arrays (and the key / value blocks are head `g`),
    the stored attention block at `(0, r, k)` is the attention array at `(g, q, k)`. -/
theorem attn_block_eq (x0 : Vec Ideal S1x512x64 .f32) (x1 : Vec Ideal S1x1024x64 .f32) (x3 : Vec Ideal S1x512x1024 .i32)
    (x4 : Vec Ideal S1x512x1 .f32) (A0 A1 : S64x1024x64.Idx → EReal) (A3 : S64x1024x1024.Idx → BitVec 32)
    (A4 : S64x1024x1.Idx → EReal) (r : Fin 512) (k : Fin 1024) (g : Fin 64) (q : Fin 1024)
    (h0 : ∀ d : Fin 64, x0 (ix3 (0 : Fin 1) r d) = A0 (ix3 g q d))
    (h1 : ∀ (k' : Fin 1024) (d : Fin 64), x1 (ix3 (0 : Fin 1) k' d) = A1 (ix3 g k' d))
    (h3 : ∀ k' : Fin 1024, x3 (ix3 (0 : Fin 1) r k') = A3 (ix3 g q k'))
    (h4 : x4 (ix3 (0 : Fin 1) r (0 : Fin 1)) = A4 (ix3 g q (0 : Fin 1))) :
    k0_pay4 (F := Ideal) x0 x1 x3 x4 (ix3 (0 : Fin 1) r k) = attn3 A0 A1 A3 A4 (ix3 g q k) := by
  rw [pay4_at]
  simp only [h0, h1, h3, h4]
  rfl

/-- The same for the stored output block at `(0, r, d)`. -/
theorem out_block_eq (x0 : Vec Ideal S1x512x64 .f32) (x1 x2 : Vec Ideal S1x1024x64 .f32) (x3 : Vec Ideal S1x512x1024 .i32)
    (x4 : Vec Ideal S1x512x1 .f32) (A0 A1 A2 : S64x1024x64.Idx → EReal) (A3 : S64x1024x1024.Idx → BitVec 32)
    (A4 : S64x1024x1.Idx → EReal) (r : Fin 512) (d : Fin 64) (g : Fin 64) (q : Fin 1024)
    (h0 : ∀ d' : Fin 64, x0 (ix3 (0 : Fin 1) r d') = A0 (ix3 g q d'))
    (h1 : ∀ (k' : Fin 1024) (d' : Fin 64), x1 (ix3 (0 : Fin 1) k' d') = A1 (ix3 g k' d'))
    (h2 : ∀ (k' : Fin 1024) (d' : Fin 64), x2 (ix3 (0 : Fin 1) k' d') = A2 (ix3 g k' d'))
    (h3 : ∀ k' : Fin 1024, x3 (ix3 (0 : Fin 1) r k') = A3 (ix3 g q k'))
    (h4 : x4 (ix3 (0 : Fin 1) r (0 : Fin 1)) = A4 (ix3 g q (0 : Fin 1))) :
    k0_pay1 (F := Ideal) (k0_pay2 x2) (k0_pay3 x0 x1 x3 x4) (ix3 (0 : Fin 1) r d) = out3 A0 A1 A2 A3 A4 (ix3 g q d) := by
  rw [pay1_at]
  simp only [h0, h1, h2, h3, h4]
  rfl

/-! ## The index maps, decided over the 128 grid points -/

/-- Every window's block index at a point against the attention window's: the row windows move with it, the key
    and value windows sit at `(g, 0, 0)`, the last axis is never split; and the attention window's ranges. -/
theorem idx_facts : ∀ t : Fin cfg0.N,
    win0_0.index t (0 : Fin 3) = win0_6.index t (0 : Fin 3) ∧ win0_0.index t (1 : Fin 3) = win0_6.index t (1 : Fin 3)
    ∧ win0_0.index t (2 : Fin 3) = 0
    ∧ win0_1.index t (0 : Fin 3) = win0_6.index t (0 : Fin 3) ∧ win0_1.index t (1 : Fin 3) = 0
    ∧ win0_1.index t (2 : Fin 3) = 0
    ∧ win0_2.index t (0 : Fin 3) = win0_6.index t (0 : Fin 3) ∧ win0_2.index t (1 : Fin 3) = 0
    ∧ win0_2.index t (2 : Fin 3) = 0
    ∧ win0_3.index t (0 : Fin 3) = win0_6.index t (0 : Fin 3) ∧ win0_3.index t (1 : Fin 3) = win0_6.index t (1 : Fin 3)
    ∧ win0_3.index t (2 : Fin 3) = 0
    ∧ win0_4.index t (0 : Fin 3) = win0_6.index t (0 : Fin 3) ∧ win0_4.index t (1 : Fin 3) = win0_6.index t (1 : Fin 3)
    ∧ win0_4.index t (2 : Fin 3) = 0
    ∧ win0_5.index t (0 : Fin 3) = win0_6.index t (0 : Fin 3) ∧ win0_5.index t (1 : Fin 3) = win0_6.index t (1 : Fin 3)
    ∧ win0_5.index t (2 : Fin 3) = 0
    ∧ win0_6.index t (2 : Fin 3) = 0 ∧ win0_6.index t (0 : Fin 3) ≤ 63 ∧ win0_6.index t (1 : Fin 3) ≤ 1 :=
  (by decide +kernel : ∀ t : Fin grid0.N, _)

/-- Every (head, half) is some point's block index, for either result window. -/
theorem idx_onto6 : ∀ (q0 : Fin 64) (q1 : Fin 2), ∃ t : Fin cfg0.N, win0_6.index t = ![q0.val, q1.val, 0] :=
  (by decide +kernel : ∀ (q0 : Fin 64) (q1 : Fin 2), ∃ t : Fin grid0.N, win0_6.index t = ![q0.val, q1.val, 0])

theorem idx_onto5 : ∀ (q0 : Fin 64) (q1 : Fin 2), ∃ t : Fin cfg0.N, win0_5.index t = ![q0.val, q1.val, 0] :=
  (by decide +kernel : ∀ (q0 : Fin 64) (q1 : Fin 2), ∃ t : Fin grid0.N, win0_5.index t = ![q0.val, q1.val, 0])

/-! ## What a point writes back -/

/-- Point `t` writes back block `t` of the attention array of the region-entry arrays. -/
theorem flushed6_eq (c : Dev nD) (t : Fin cfg0.N) :
    (dats m 0 c).flushed 6 t = ((cfg0.win 6).blk t).view.read (Elt Ideal)
      (attn3 (V m c main_v0) (V m c main_v1) (V m c main_v3) (V m c main_v5)) := by
  show (cfg0.win 6).cut (grid0.coords t) ((dats m 0 c).after 6 t) = _
  rw [after0_6]
  unfold out0_6
  rw [View.canon_unit_zero hz3]
  simp only [View.ld_unit_zero (S := S1x512x64) hz3, View.ld_unit_zero (S := S1x1024x64) hz3,
    View.ld_unit_zero (S := S1x512x1024) hz3, View.ld_unit_zero (S := S1x512x1) hz3]
  obtain ⟨e00, e01, e02, e10, e11, e12, e20, e21, e22, e30, e31, e32, e40, e41, e42, e50, e51, e52, e62, r0, r1⟩ :=
    idx_facts t
  funext j
  obtain ⟨u, r, k, rfl⟩ : ∃ (u : Fin 1) (r : Fin 512) (k : Fin 1024), j = ix3 u r k := ⟨j 0, j 1, j 2, eq_ix3 j⟩
  obtain rfl : u = 0 := Subsingleton.elim _ _
  obtain ⟨g, q, k', hi⟩ : ∃ (g : Fin 64) (q k' : Fin 1024),
      ((cfg0.win 6).blk t).view.emb (ix3 (0 : Fin 1) r k) = ix3 g q k' := ⟨_, _, _, eq_ix3 _⟩
  have hg : win0_6.index t (0 : Fin 3) * 1 + 1 * 0 = g.val := congrArg Fin.val (congrFun hi 0)
  have hq : win0_6.index t (1 : Fin 3) * 512 + 1 * r.val = q.val := congrArg Fin.val (congrFun hi 1)
  have hk' : win0_6.index t (2 : Fin 3) * 1024 + 1 * k.val = k'.val := congrArg Fin.val (congrFun hi 2)
  obtain rfl : k' = k := Fin.ext (by omega)
  refine Eq.trans ?_ (congrArg (attn3 (V m c main_v0) (V m c main_v1) (V m c main_v3) (V m c main_v5)) hi).symm
  refine attn_block_eq (iblk m c 0 t) (iblk m c 1 t) (iblk m c 3 t) (iblk m c 4 t) (V m c main_v0) (V m c main_v1)
    (V m c main_v3) (V m c main_v5) r k' g q ?_ ?_ ?_ ?_
  · intro d
    show V m c main_v0 (((cfg0.win 0).blk t).view.emb (ix3 (0 : Fin 1) r d)) = _
    refine congrArg (V m c main_v0) (funext fun a => Fin.ext ?_)
    match a with
    | ⟨0, _⟩ => show win0_0.index t (0 : Fin 3) * 1 + 1 * 0 = g.val; omega
    | ⟨1, _⟩ => show win0_0.index t (1 : Fin 3) * 512 + 1 * r.val = q.val; omega
    | ⟨2, _⟩ => show win0_0.index t (2 : Fin 3) * 64 + 1 * d.val = d.val; omega
  · intro kk d
    show V m c main_v1 (((cfg0.win 1).blk t).view.emb (ix3 (0 : Fin 1) kk d)) = _
    refine congrArg (V m c main_v1) (funext fun a => Fin.ext ?_)
    match a with
    | ⟨0, _⟩ => show win0_1.index t (0 : Fin 3) * 1 + 1 * 0 = g.val; omega
    | ⟨1, _⟩ => show win0_1.index t (1 : Fin 3) * 1024 + 1 * kk.val = kk.val; omega
    | ⟨2, _⟩ => show win0_1.index t (2 : Fin 3) * 64 + 1 * d.val = d.val; omega
  · intro kk
    show V m c main_v3 (((cfg0.win 3).blk t).view.emb (ix3 (0 : Fin 1) r kk)) = _
    refine congrArg (V m c main_v3) (funext fun a => Fin.ext ?_)
    match a with
    | ⟨0, _⟩ => show win0_3.index t (0 : Fin 3) * 1 + 1 * 0 = g.val; omega
    | ⟨1, _⟩ => show win0_3.index t (1 : Fin 3) * 512 + 1 * r.val = q.val; omega
    | ⟨2, _⟩ => show win0_3.index t (2 : Fin 3) * 1024 + 1 * kk.val = kk.val; omega
  · show V m c main_v5 (((cfg0.win 4).blk t).view.emb (ix3 (0 : Fin 1) r (0 : Fin 1))) = _
    refine congrArg (V m c main_v5) (funext fun a => Fin.ext ?_)
    match a with
    | ⟨0, _⟩ => show win0_4.index t (0 : Fin 3) * 1 + 1 * 0 = g.val; omega
    | ⟨1, _⟩ => show win0_4.index t (1 : Fin 3) * 512 + 1 * r.val = q.val; omega
    | ⟨2, _⟩ => show win0_4.index t (2 : Fin 3) * 1 + 1 * 0 = 0; omega

/-- Point `t` writes back block `t` of the output array of the region-entry arrays. -/
theorem flushed5_eq (c : Dev nD) (t : Fin cfg0.N) :
    (dats m 0 c).flushed 5 t = ((cfg0.win 5).blk t).view.read (Elt Ideal)
      (out3 (V m c main_v0) (V m c main_v1) (V m c main_v2) (V m c main_v3) (V m c main_v5)) := by
  show (cfg0.win 5).cut (grid0.coords t) ((dats m 0 c).after 5 t) = _
  rw [after0_5]
  unfold out0_5
  rw [View.canon_unit_zero hz3]
  simp only [View.ld_unit_zero (S := S1x512x64) hz3, View.ld_unit_zero (S := S1x1024x64) hz3,
    View.ld_unit_zero (S := S1x512x1024) hz3, View.ld_unit_zero (S := S1x512x1) hz3]
  obtain ⟨e00, e01, e02, e10, e11, e12, e20, e21, e22, e30, e31, e32, e40, e41, e42, e50, e51, e52, e62, r0, r1⟩ :=
    idx_facts t
  funext j
  obtain ⟨u, r, d, rfl⟩ : ∃ (u : Fin 1) (r : Fin 512) (d : Fin 64), j = ix3 u r d := ⟨j 0, j 1, j 2, eq_ix3 j⟩
  obtain rfl : u = 0 := Subsingleton.elim _ _
  obtain ⟨g, q, d', hi⟩ : ∃ (g : Fin 64) (q : Fin 1024) (d' : Fin 64),
      ((cfg0.win 5).blk t).view.emb (ix3 (0 : Fin 1) r d) = ix3 g q d' := ⟨_, _, _, eq_ix3 _⟩
  have hg : win0_5.index t (0 : Fin 3) * 1 + 1 * 0 = g.val := congrArg Fin.val (congrFun hi 0)
  have hq : win0_5.index t (1 : Fin 3) * 512 + 1 * r.val = q.val := congrArg Fin.val (congrFun hi 1)
  have hd' : win0_5.index t (2 : Fin 3) * 64 + 1 * d.val = d'.val := congrArg Fin.val (congrFun hi 2)
  obtain rfl : d' = d := Fin.ext (by omega)
  refine Eq.trans ?_ (congrArg (out3 (V m c main_v0) (V m c main_v1) (V m c main_v2) (V m c main_v3) (V m c main_v5)) hi).symm
  refine out_block_eq (iblk m c 0 t) (iblk m c 1 t) (iblk m c 2 t) (iblk m c 3 t) (iblk m c 4 t) (V m c main_v0)
    (V m c main_v1) (V m c main_v2) (V m c main_v3) (V m c main_v5) r d' g q ?_ ?_ ?_ ?_ ?_
  · intro dd
    show V m c main_v0 (((cfg0.win 0).blk t).view.emb (ix3 (0 : Fin 1) r dd)) = _
    refine congrArg (V m c main_v0) (funext fun a => Fin.ext ?_)
    match a with
    | ⟨0, _⟩ => show win0_0.index t (0 : Fin 3) * 1 + 1 * 0 = g.val; omega
    | ⟨1, _⟩ => show win0_0.index t (1 : Fin 3) * 512 + 1 * r.val = q.val; omega
    | ⟨2, _⟩ => show win0_0.index t (2 : Fin 3) * 64 + 1 * dd.val = dd.val; omega
  · intro kk dd
    show V m c main_v1 (((cfg0.win 1).blk t).view.emb (ix3 (0 : Fin 1) kk dd)) = _
    refine congrArg (V m c main_v1) (funext fun a => Fin.ext ?_)
    match a with
    | ⟨0, _⟩ => show win0_1.index t (0 : Fin 3) * 1 + 1 * 0 = g.val; omega
    | ⟨1, _⟩ => show win0_1.index t (1 : Fin 3) * 1024 + 1 * kk.val = kk.val; omega
    | ⟨2, _⟩ => show win0_1.index t (2 : Fin 3) * 64 + 1 * dd.val = dd.val; omega
  · intro kk dd
    show V m c main_v2 (((cfg0.win 2).blk t).view.emb (ix3 (0 : Fin 1) kk dd)) = _
    refine congrArg (V m c main_v2) (funext fun a => Fin.ext ?_)
    match a with
    | ⟨0, _⟩ => show win0_2.index t (0 : Fin 3) * 1 + 1 * 0 = g.val; omega
    | ⟨1, _⟩ => show win0_2.index t (1 : Fin 3) * 1024 + 1 * kk.val = kk.val; omega
    | ⟨2, _⟩ => show win0_2.index t (2 : Fin 3) * 64 + 1 * dd.val = dd.val; omega
  · intro kk
    show V m c main_v3 (((cfg0.win 3).blk t).view.emb (ix3 (0 : Fin 1) r kk)) = _
    refine congrArg (V m c main_v3) (funext fun a => Fin.ext ?_)
    match a with
    | ⟨0, _⟩ => show win0_3.index t (0 : Fin 3) * 1 + 1 * 0 = g.val; omega
    | ⟨1, _⟩ => show win0_3.index t (1 : Fin 3) * 512 + 1 * r.val = q.val; omega
    | ⟨2, _⟩ => show win0_3.index t (2 : Fin 3) * 1024 + 1 * kk.val = kk.val; omega
  · show V m c main_v5 (((cfg0.win 4).blk t).view.emb (ix3 (0 : Fin 1) r (0 : Fin 1))) = _
    refine congrArg (V m c main_v5) (funext fun a => Fin.ext ?_)
    match a with
    | ⟨0, _⟩ => show win0_4.index t (0 : Fin 3) * 1 + 1 * 0 = g.val; omega
    | ⟨1, _⟩ => show win0_4.index t (1 : Fin 3) * 512 + 1 * r.val = q.val; omega
    | ⟨2, _⟩ => show win0_4.index t (2 : Fin 3) * 1 + 1 * 0 = 0; omega

/-! ## The blocks tile the arrays -/

theorem mem_blk6 (t : Fin cfg0.N) (i : S64x1024x1024.Idx) :
    i ∈ ((cfg0.win 6).blk t).view.set ↔ ∀ a : Fin 3, win0_6.index t a * S1x512x1024.size a ≤ (i a).val
      ∧ (i a).val < win0_6.index t a * S1x512x1024.size a + S1x512x1024.size a := by
  show i ∈ ((View.whole main_v6_1).slice (win0_6.rect t)).set ↔ _
  rw [View.set_slice_whole, Rect.mem_set_unit]
  exact Iff.rfl

theorem mem_blk5 (t : Fin cfg0.N) (i : S64x1024x64.Idx) :
    i ∈ ((cfg0.win 5).blk t).view.set ↔ ∀ a : Fin 3, win0_5.index t a * S1x512x64.size a ≤ (i a).val
      ∧ (i a).val < win0_5.index t a * S1x512x64.size a + S1x512x64.size a := by
  show i ∈ ((View.whole main_v6_0).slice (win0_5.rect t)).set ↔ _
  rw [View.set_slice_whole, Rect.mem_set_unit]
  exact Iff.rfl

/-- Entry `(g, q, k)` of the attention array is in the block of the point at head `g`, half `q / 512`. -/
theorem cover6 (i : S64x1024x1024.Idx) :
    ∃ t : Fin cfg0.N, (cfg0.win 6).flush t = true ∧ i ∈ ((cfg0.win 6).blk t).view.set := by
  have hi0 : (i 0).val < 64 := (i 0).isLt
  have hi1 : (i 1).val < 1024 := (i 1).isLt
  have hi2 : (i 2).val < 1024 := (i 2).isLt
  obtain ⟨t, ht⟩ := idx_onto6 ⟨(i 0).val, hi0⟩ ⟨(i 1).val / 512, by omega⟩
  have q0 : win0_6.index t (0 : Fin 3) = (i 0).val := congrFun ht 0
  have q1 : win0_6.index t (1 : Fin 3) = (i 1).val / 512 := congrFun ht 1
  have q2 : win0_6.index t (2 : Fin 3) = 0 := congrFun ht 2
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 1024 ≤ (i 2).val ∧ (i 2).val < win0_6.index t (2 : Fin 3) * 1024 + 1024; omega

/-- Entry `(g, q, d)` of the output array likewise. -/
theorem cover5 (i : S64x1024x64.Idx) :
    ∃ t : Fin cfg0.N, (cfg0.win 5).flush t = true ∧ i ∈ ((cfg0.win 5).blk t).view.set := by
  have hi0 : (i 0).val < 64 := (i 0).isLt
  have hi1 : (i 1).val < 1024 := (i 1).isLt
  have hi2 : (i 2).val < 64 := (i 2).isLt
  obtain ⟨t, ht⟩ := idx_onto5 ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 64 ≤ (i 2).val ∧ (i 2).val < win0_5.index t (2 : Fin 3) * 64 + 64; omega

/-! ## The arrays after the run -/

/-- The attention array after the run. -/
theorem final6 (c : Dev nD) :
    (dats m 0 c).arrAt 6 cfg0.N = attn3 (V m c main_v0) (V m c main_v1) (V m c main_v3) (V m c main_v5) :=
  (dats m 0 c).arrAt_eq_of_cover 6 _ (fun t _ => flushed6_eq m c t) (fun i => cover6 i)

/-- The output array after the run. -/
theorem final5 (c : Dev nD) :
    (dats m 0 c).arrAt 5 cfg0.N
      = out3 (V m c main_v0) (V m c main_v1) (V m c main_v2) (V m c main_v3) (V m c main_v5) :=
  (dats m 0 c).arrAt_eq_of_cover 5 _ (fun t _ => flushed5_eq m c t) (fun i => cover5 i)

end Cert.KernelIdeal.Blocks

end
-- ==== Proof.LibMergeLead.lean ====
/-
  Two leading axes merged into one, or one split into two, by a shape cast, read at an index: an `[a, b, c, d]`
  array viewed as `[n, c, d]` with `n = a * b` holds at `(p * b + p', q, r)` the entry `(p, p', q, r)`, and the other
  way round. (Row-major positions: `((p * b + p') * c + q) * d + r` on both sides.) This is the reshape a batched
  computation over `(batch, head)` makes on entering and leaving a kernel that runs over one merged batch axis.
-/
import Idealize.ShloMosaic.Lib.ValueIdx
import Idealize.ShloMosaic.Lib.Pipeline.Value

namespace Cert.Lib

open Idealize.ShloMosaic Idealize.ShloMosaic.ValueIdx

variable {α : Type}

/-- Leading axes merged: the `[n, c, d]` view at `(g, q, r)`, where `g = p * b + p'`, reads entry `(p, p', q, r)`. -/
theorem shapeCast_merge2_apply {a b c d n : ℕ} (x : (⟨4, ![a, b, c, d]⟩ : Shape).Idx → α)
    (h : (⟨4, ![a, b, c, d]⟩ : Shape).ShapeCasts ⟨3, ![n, c, d]⟩) (p : Fin a) (p' : Fin b) (g : Fin n)
    (hg : g.val = p.val * b + p'.val) (q : Fin c) (r : Fin d) :
    shapeCast ⟨3, ![n, c, d]⟩ x h (ix3 g q r) = x (ix4 p p' q r) :=
  shapeCast_apply x h _ _ (by
    rw [Shape.rowMajor_val_four, Shape.rowMajor_val_three]
    show ((p.val * b + p'.val) * c + q.val) * d + r.val = (g.val * c + q.val) * d + r.val
    rw [hg])

/-- Leading axis split: the `[a, b, c, d]` view at `(p, p', q, r)` reads entry `(g, q, r)`, where `g = p * b + p'`. -/
theorem shapeCast_split2_apply {a b c d n : ℕ} (y : (⟨3, ![n, c, d]⟩ : Shape).Idx → α)
    (h : (⟨3, ![n, c, d]⟩ : Shape).ShapeCasts ⟨4, ![a, b, c, d]⟩) (p : Fin a) (p' : Fin b) (g : Fin n)
    (hg : g.val = p.val * b + p'.val) (q : Fin c) (r : Fin d) :
    shapeCast ⟨4, ![a, b, c, d]⟩ y h (ix4 p p' q r) = y (ix3 g q r) :=
  shapeCast_apply y h _ _ (by
    rw [Shape.rowMajor_val_four, Shape.rowMajor_val_three]
    show (g.val * c + q.val) * d + r.val = ((p.val * b + p'.val) * c + q.val) * d + r.val
    rw [hg])

end Cert.Lib
-- ==== Proof.KernelHost.lean ====
/-
  The host lines around the region, and the idealized kernel's run read back.

  Before the region the three float arguments and the mask, `[8, 8, …]`, are viewed as `[64, …]` (the two batch
  axes merged: head `(b, h)` is row `8 b + h`), and the query mask `[8, 8, 1, 1024]` is transposed on its last two
  axes and viewed as the column `[64, 1024, 1]`: entry `(8 b + h, q, 0)` of the column is entry `(b, h, 0, q)` of the
  argument. After the region both results are viewed back as `[8, 8, …]`. A merged view and its split view have the
  same row-major positions, so entry `(b, h, q, ·)` of a final result is entry `(8 b + h, q, ·)` of the region's
  array, which is the row specification of rows of the `[64, …]` views, which are rows `(b, h, ·, ·)` of the
  arguments: the `[8, 8, …]` specification.
-/
import proofs.«128192_j53420803228253_2_alg».proof.Proof.KernelBlocks
import proofs.«128192_j53420803228253_2_alg».proof.Proof.LibMergeLead
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.ShloMosaic.ValueIdx
open Idealize.SL.Sem Idealize.ShloMosaic.StableHlo
open Cert.Attn Cert.Lib Cert.KernelIdeal.Blocks

variable (m : (ℓ : Loc nD τ sig) → Buf (Elt Ideal) ℓ) (ρ : Dev nD → PrngReg)

/-! ## The arrays the region finds -/

theorem V_v0 (c : Dev nD) : (V m c main_v0 : S64x1024x64.Idx → EReal)
    = shapeCast S64x1024x64 (m ((c : Thread nD τ).loc main_arg0)) shapeCasts_S8x8x1024x64_S64x1024x64 := by
  show StableHlo.after hostOps0 (fun b => m (c, b)) (Proc.devRef .tc main_v0) = _
  after_results
  rfl

theorem V_v1 (c : Dev nD) : (V m c main_v1 : S64x1024x64.Idx → EReal)
    = shapeCast S64x1024x64 (m ((c : Thread nD τ).loc main_arg1)) shapeCasts_S8x8x1024x64_S64x1024x64 := by
  show StableHlo.after hostOps0 (fun b => m (c, b)) (Proc.devRef .tc main_v1) = _
  after_results
  rfl

theorem V_v2 (c : Dev nD) : (V m c main_v2 : S64x1024x64.Idx → EReal)
    = shapeCast S64x1024x64 (m ((c : Thread nD τ).loc main_arg2)) shapeCasts_S8x8x1024x64_S64x1024x64 := by
  show StableHlo.after hostOps0 (fun b => m (c, b)) (Proc.devRef .tc main_v2) = _
  after_results
  rfl

theorem V_v3 (c : Dev nD) : (V m c main_v3 : S64x1024x1024.Idx → BitVec 32)
    = shapeCast S64x1024x1024 (m ((c : Thread nD τ).loc main_arg3)) shapeCasts_S8x8x1024x1024_S64x1024x1024 := by
  show StableHlo.after hostOps0 (fun b => m (c, b)) (Proc.devRef .tc main_v3) = _
  after_results
  rfl

theorem V_v5 (c : Dev nD) : (V m c main_v5 : S64x1024x1.Idx → EReal)
    = shapeCast S64x1024x1 (transpose S8x8x1024x1 [0, 1, 3, 2] (m ((c : Thread nD τ).loc main_arg4))
        transposes_S8x8x1x1024_S8x8x1024x1_0_1_3_2) shapeCasts_S8x8x1024x1_S64x1024x1 := by
  show StableHlo.after hostOps0 (fun b => m (c, b)) (Proc.devRef .tc main_v5) = _
  after_results
  rfl

/-! ## …read at an index: row `8 b + h` of a merged view is head `(b, h)` -/

theorem V_v0_at (c : Dev nD) (b h : Fin 8) (g : Fin 64) (hg : g.val = b.val * 8 + h.val) (q : Fin 1024) (d : Fin 64) :
    V m c main_v0 (ix3 g q d) = m ((c : Thread nD τ).loc main_arg0) (ix4 b h q d) :=
  (congrFun (V_v0 m c) (ix3 g q d)).trans (shapeCast_merge2_apply _ _ b h g hg q d)

theorem V_v1_at (c : Dev nD) (b h : Fin 8) (g : Fin 64) (hg : g.val = b.val * 8 + h.val) (q : Fin 1024) (d : Fin 64) :
    V m c main_v1 (ix3 g q d) = m ((c : Thread nD τ).loc main_arg1) (ix4 b h q d) :=
  (congrFun (V_v1 m c) (ix3 g q d)).trans (shapeCast_merge2_apply _ _ b h g hg q d)

theorem V_v2_at (c : Dev nD) (b h : Fin 8) (g : Fin 64) (hg : g.val = b.val * 8 + h.val) (q : Fin 1024) (d : Fin 64) :
    V m c main_v2 (ix3 g q d) = m ((c : Thread nD τ).loc main_arg2) (ix4 b h q d) :=
  (congrFun (V_v2 m c) (ix3 g q d)).trans (shapeCast_merge2_apply _ _ b h g hg q d)

theorem V_v3_at (c : Dev nD) (b h : Fin 8) (g : Fin 64) (hg : g.val = b.val * 8 + h.val) (q k : Fin 1024) :
    V m c main_v3 (ix3 g q k) = m ((c : Thread nD τ).loc main_arg3) (ix4 b h q k) :=
  (congrFun (V_v3 m c) (ix3 g q k)).trans (shapeCast_merge2_apply _ _ b h g hg q k)

theorem V_v5_at (c : Dev nD) (b h : Fin 8) (g : Fin 64) (hg : g.val = b.val * 8 + h.val) (q : Fin 1024) :
    V m c main_v5 (ix3 g q (0 : Fin 1)) = m ((c : Thread nD τ).loc main_arg4) (ix4 b h (0 : Fin 1) q) :=
  (congrFun (V_v5 m c) (ix3 g q (0 : Fin 1))).trans
    ((shapeCast_merge2_apply _ _ b h g hg q (0 : Fin 1)).trans
      (transpose_apply [0, 1, 3, 2] _ transposes_S8x8x1x1024_S8x8x1024x1_0_1_3_2 (ix4 b h q (0 : Fin 1))
        (ix4 b h (0 : Fin 1) q) (fun a => match a with
          | ⟨0, _⟩ => rfl
          | ⟨1, _⟩ => rfl
          | ⟨2, _⟩ => rfl
          | ⟨3, _⟩ => rfl)))

/-! ## The lines after the region -/

/-- The first result: the region's output array viewed as `[8, 8, 1024, 64]`. -/
theorem tail_v7 (c : Dev nD) :
    Pipeline.afterTail₀ cfgs (dats m) 0 (V0 m) [hostOps1] c main_v7
      = shapeCast S8x8x1024x64 ((dats m 0 c).arrAt 5 cfg0.N) shapeCasts_S64x1024x64_S8x8x1024x64 := by
  have e : Pipeline.withArrays spec0 c (V0 m c) (fun w => (dats m 0 c).arrAt w cfg0.N) (Proc.devRef .tc main_v6_0)
      = (dats m 0 c).arrAt 5 cfg0.N :=
    Pipeline.withArrays_arr spec0 launch0.win.arr_inj c (V0 m c) (fun w => (dats m 0 c).arrAt w cfg0.N) 5
  unfold Pipeline.afterTail₀
  show StableHlo.after hostOps1 _ (Proc.devRef .tc main_v7) = _
  after_results
  exact congrArg (fun X => shapeCast S8x8x1024x64 X shapeCasts_S64x1024x64_S8x8x1024x64) e

/-- The second result: the region's attention array viewed as `[8, 8, 1024, 1024]`. -/
theorem tail_v8 (c : Dev nD) :
    Pipeline.afterTail₀ cfgs (dats m) 0 (V0 m) [hostOps1] c main_v8
      = shapeCast S8x8x1024x1024 ((dats m 0 c).arrAt 6 cfg0.N) shapeCasts_S64x1024x1024_S8x8x1024x1024 := by
  have e : Pipeline.withArrays spec0 c (V0 m c) (fun w => (dats m 0 c).arrAt w cfg0.N) (Proc.devRef .tc main_v6_1)
      = (dats m 0 c).arrAt 6 cfg0.N :=
    Pipeline.withArrays_arr spec0 launch0.win.arr_inj c (V0 m c) (fun w => (dats m 0 c).arrAt w cfg0.N) 6
  unfold Pipeline.afterTail₀
  show StableHlo.after hostOps1 _ (Proc.devRef .tc main_v8) = _
  after_results
  exact congrArg (fun X => shapeCast S8x8x1024x1024 X shapeCasts_S64x1024x1024_S8x8x1024x1024) e

/-! ## The two results as the `[8, 8, …]` specification of the arguments -/

theorem result8 (c : Dev nD) :
    shapeCast S8x8x1024x1024 ((dats m 0 c).arrAt 6 cfg0.N) shapeCasts_S64x1024x1024_S8x8x1024x1024
      = attn4 (m ((c : Thread nD τ).loc main_arg0)) (m ((c : Thread nD τ).loc main_arg1))
          (m ((c : Thread nD τ).loc main_arg3)) (m ((c : Thread nD τ).loc main_arg4)) := by
  funext i
  obtain ⟨b, h, q, k, rfl⟩ : ∃ (b h : Fin 8) (q k : Fin 1024), i = ix4 b h q k := ⟨i 0, i 1, i 2, i 3, eq_ix4 i⟩
  obtain ⟨g, hg⟩ : ∃ g : Fin 64, g.val = b.val * 8 + h.val :=
    ⟨⟨b.val * 8 + h.val, by have := b.isLt; have := h.isLt; omega⟩, rfl⟩
  refine (shapeCast_split2_apply _ _ b h g hg q k).trans ?_
  rw [final6]
  show attnRow (fun d => V m c main_v0 (ix3 g q d)) (fun k' d => V m c main_v1 (ix3 g k' d))
      (fun k' => V m c main_v3 (ix3 g q k')) (V m c main_v5 (ix3 g q (0 : Fin 1))) k
    = attnRow (fun d => m ((c : Thread nD τ).loc main_arg0) (ix4 b h q d))
      (fun k' d => m ((c : Thread nD τ).loc main_arg1) (ix4 b h k' d))
      (fun k' => m ((c : Thread nD τ).loc main_arg3) (ix4 b h q k'))
      (m ((c : Thread nD τ).loc main_arg4) (ix4 b h (0 : Fin 1) q)) k
  simp only [V_v0_at m c b h g hg, V_v1_at m c b h g hg, V_v3_at m c b h g hg, V_v5_at m c b h g hg]

theorem result7 (c : Dev nD) :
    shapeCast S8x8x1024x64 ((dats m 0 c).arrAt 5 cfg0.N) shapeCasts_S64x1024x64_S8x8x1024x64
      = out4 (m ((c : Thread nD τ).loc main_arg0)) (m ((c : Thread nD τ).loc main_arg1))
          (m ((c : Thread nD τ).loc main_arg2)) (m ((c : Thread nD τ).loc main_arg3))
          (m ((c : Thread nD τ).loc main_arg4)) := by
  funext i
  obtain ⟨b, h, q, d, rfl⟩ : ∃ (b h : Fin 8) (q : Fin 1024) (d : Fin 64), i = ix4 b h q d := ⟨i 0, i 1, i 2, i 3, eq_ix4 i⟩
  obtain ⟨g, hg⟩ : ∃ g : Fin 64, g.val = b.val * 8 + h.val :=
    ⟨⟨b.val * 8 + h.val, by have := b.isLt; have := h.isLt; omega⟩, rfl⟩
  refine (shapeCast_split2_apply _ _ b h g hg q d).trans ?_
  rw [final5]
  show outRow (fun d' => V m c main_v0 (ix3 g q d')) (fun k' d' => V m c main_v1 (ix3 g k' d'))
      (fun k' d' => V m c main_v2 (ix3 g k' d')) (fun k' => V m c main_v3 (ix3 g q k'))
      (V m c main_v5 (ix3 g q (0 : Fin 1))) d
    = outRow (fun d' => m ((c : Thread nD τ).loc main_arg0) (ix4 b h q d'))
      (fun k' d' => m ((c : Thread nD τ).loc main_arg1) (ix4 b h k' d'))
      (fun k' d' => m ((c : Thread nD τ).loc main_arg2) (ix4 b h k' d'))
      (fun k' => m ((c : Thread nD τ).loc main_arg3) (ix4 b h q k'))
      (m ((c : Thread nD τ).loc main_arg4) (ix4 b h (0 : Fin 1) q)) d
  simp only [V_v0_at m c b h g hg, V_v1_at m c b h g hg, V_v2_at m c b h g hg, V_v3_at m c b h g hg,
    V_v5_at m c b h g hg]

/-! ## The run, read -/

/-- Every weakly fair execution of the idealized kernel terminates with its two results at the `[8, 8, …]`
    specification of the argument arrays, and the arguments unchanged. -/
theorem run : θ_run defs (onTc (τ := τ) (main (F := Ideal))) ⟨m, fun _ => 0, ρ⟩ fun r => ∀ c : Dev nD,
      r.2.mem ((c.tc : Thread nD τ).loc main_v7)
        = out4 (m ((c : Thread nD τ).loc main_arg0)) (m ((c : Thread nD τ).loc main_arg1))
            (m ((c : Thread nD τ).loc main_arg2)) (m ((c : Thread nD τ).loc main_arg3))
            (m ((c : Thread nD τ).loc main_arg4))
      ∧ r.2.mem ((c.tc : Thread nD τ).loc main_v8)
        = attn4 (m ((c : Thread nD τ).loc main_arg0)) (m ((c : Thread nD τ).loc main_arg1))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(((h c).2 main_v7 (Pipeline.mem_restRefs_of main_v7 (by decide) (by decide))).trans (tail_v7 m c)).trans (result7 m c),
      (((h c).2 main_v8 (Pipeline.mem_restRefs_of main_v8 (by decide) (by decide))).trans (tail_v8 m c)).trans (result8 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.HostValue

end
-- ==== Proof.lean ====
/-
  Masked softmax attention with a query mask, `[8, 8, 1024, 64]` queries, keys and values: a tiled kernel against
  the einsum / softmax reference, equal on the extended reals.

  Both programs compute, for every head `(b, h)` and query row `q`:
    score k   = -1e9 where mask (b, h, q, k) = 0, else the sum over d of (Q (b, h, q, d) scaled by 1/8) * K (b, h, k, d)
    weight k  = exp (score k - max over k of the scores)          (the maximum folded from -∞)
    attn k    = weight k / (sum over k of the weights) * query_mask (b, h, 0, q)
    out d     = the sum over k of attn k * V (b, h, k, d)
  and return `out` and `attn`. The kernel works on the `[64, …]` views of the arguments, one grid point per head and
  half of the query rows, multiplies the queries by the word for 1/8, and takes both matrix products into zero
  accumulators; the reference divides the queries by the word for 8 and takes the maximum once more against -∞.
  Division by 8 is multiplication by 1/8 on every extended real and `max (-∞) x = x`, so the two agree without any
  use of the inputs' finiteness; changes of float format are the identity at the ideal values, and sums may be
  taken in any order.

  The modules: AttnSpec (the row specification and the two scalar laws), RefRead (the reference's two results
  are the specification), KernelPayload (the kernel body's stores are the specification of the loaded blocks),
  KernelBlocks (the blocks the points write back tile the region's arrays), KernelHost (the views before and after
  the region; the kernel's run), and the claims below.
-/
import proofs.«128192_j53420803228253_2_alg».proof.Defs
import proofs.«128192_j53420803228253_2_alg».proof.Proof.Gen.Kernel
import proofs.«128192_j53420803228253_2_alg».proof.Proof.Gen.Kernel.Skeleton
import proofs.«128192_j53420803228253_2_alg».proof.Proof.Gen.Kernel.Launch
import proofs.«128192_j53420803228253_2_alg».proof.Proof.Gen.Kernel.Points
import proofs.«128192_j53420803228253_2_alg».proof.Proof.Gen.Kernel.Frame
import proofs.«128192_j53420803228253_2_alg».proof.Proof.Gen.KernelIdeal
import proofs.«128192_j53420803228253_2_alg».proof.Proof.Gen.KernelIdeal.Skeleton
import proofs.«128192_j53420803228253_2_alg».proof.Proof.Gen.KernelIdeal.Launch
import proofs.«128192_j53420803228253_2_alg».proof.Proof.Gen.KernelIdeal.Points
import proofs.«128192_j53420803228253_2_alg».proof.Proof.Gen.KernelIdeal.Frame
import proofs.«128192_j53420803228253_2_alg».proof.Proof.Gen.ReferenceIdeal
import proofs.«128192_j53420803228253_2_alg».proof.Proof.Gen.Pre_finite_inputs
import proofs.«128192_j53420803228253_2_alg».proof.Proof.Gen.ReferenceIdeal.Run
import proofs.«128192_j53420803228253_2_alg».proof.Proof.Gen.ReferenceIdeal.Read
import proofs.«128192_j53420803228253_2_alg».proof.Proof.RefRead
import proofs.«128192_j53420803228253_2_alg».proof.Proof.KernelHost
import Idealize.ShloMosaic.Adequacy
import Idealize.ShloMosaic.Init

noncomputable section

namespace Cert.Proof

open Idealize.ShloMosaic Idealize.SL.Sem Cert.Attn

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- And the reference: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- From memories agreeing on the five arguments both programs end with the attention output and the attention
    weights of the specification. -/
theorem algebraic : Cert.algebraic_KernelIdeal_ReferenceIdeal := by
  intro m ρ m' ρ' _ hagree
  refine ⟨fun c => out4 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    fun c => attn4 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.HostValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v20_eq, Cert.ReferenceIdeal.RefValue.out_eq, (hagree c).1,
      (hagree c).2.1, (hagree c).2.2.1, (hagree c).2.2.2.1, (hagree c).2.2.2.2]
  · rw [(h c).2.1, Cert.ReferenceIdeal.Read.val_main_v19_eq, Cert.ReferenceIdeal.RefValue.attn_eq, (hagree c).1,
      (hagree c).2.1, (hagree c).2.2.2.1, (hagree c).2.2.2.2]

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
